-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S50000x128 : Shape := ⟨2, ![50000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S100000x128 : S_.BroadcastsInDim S100000x128 (![] : Fin 0 → Fin S100000x128.rank)
  reducesTo_S100000x128_S_d0_1 : S100000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S384x128 .f32) (main_arg7 : FVec F S128 .f32) (main_arg8 : FVec F S384x128 .f32) (main_arg9 : FVec F S128 .f32) (main_v13 : IVec S_ 1) (main_v16 : IVec S500000x128 1) : IVec S_ 1 :=
  let main_c_5 : IVec S_ 1 := constantI S_ 1 1#1
  let main_v17 : IVec S_ 1 := (fun x v => Host.reduce IntOp.andi x v reducesTo_S500000x128_S_d0_1 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg8
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg9 main_v33

def fn {F : FTy → Type} [FloatOps F] (main_arg0 : FVec F S500000x128 .f32) (main_arg1 : FVec F S50000x128 .f32) (main_arg2 : FVec F S100000x128 .f32) (main_arg3 : FVec F S500000x128 .f32) (main_arg4 : IVec S500000 32) (main_arg5 : IVec S500000 32) (main_arg6 : FVec F S384x128 .f32) (main_arg7 : FVec F S128 .f32) (main_arg8 : FVec F S384x128 .f32) (main_arg9 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S500000x128 .f32 := Host.absf main_arg3
  let main_cst_4 : FVec F S_ .f32 := constant S_ .f32 0x7F800000#32
  let main_v15 : FVec F S500000x128 .f32 := broadcastInDim S500000x128 ![] bcast_S_S500000x128 main_cst_4
  let main_v16 : IVec S500000x128 1 := cmpf .olt main_v14 main_v15
  fn_part1 (F := F) main_arg6 main_arg7 main_arg8 main_arg9 main_v13 main_v16
-- ==== Kernel.lean ====
abbrev S500000x128 : Shape := ⟨2, ![500000, 128]⟩
abbrev S50000x128 : Shape := ⟨2, ![50000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S_ : Shape := ⟨0, ![]⟩
abbrev S500000x1 : Shape := ⟨2, ![500000, 1]⟩
abbrev S1x128 : Shape := ⟨2, ![1, 128]⟩
abbrev S2000x128 : Shape := ⟨2, ![2000, 128]⟩
abbrev S128x128 : Shape := ⟨2, ![128, 128]⟩

abbrev nBuf : Space → Nat
  | .hbm => 60
  | .vmem => 24
  | .smem => 0
  | _ => 0

abbrev bufTy : (tb : Table) → Fin (tcTables nBuf tb) → BufTy
  | .hbm, ⟨0, _⟩ => ⟨S500000x128, .f32⟩
  | .hbm, ⟨1, _⟩ => ⟨S50000x128, .f32⟩
  | .hbm, ⟨2, _⟩ => ⟨S100000x128, .f32⟩
  | .hbm, ⟨3, _⟩ => ⟨S500000x128, .f32⟩
  | .hbm, ⟨4, _⟩ => ⟨S500000, .i32⟩
  | .hbm, ⟨5, _⟩ => ⟨S500000, .i32⟩
  | .hbm, ⟨6, _⟩ => ⟨S384x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S_, .f32⟩
  | .hbm, ⟨11, _⟩ => ⟨S50000x128, .f32⟩
  | .hbm, ⟨12, _⟩ => ⟨S500000x1, .i32⟩
  | .hbm, ⟨13, _⟩ => ⟨S50000x128, .f32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S_, .f32⟩
  | .hbm, ⟨35, _⟩ => ⟨S100000x128, .f32⟩
  | .hbm, ⟨36, _⟩ => ⟨S500000x1, .i32⟩
  | .hbm, ⟨37, _⟩ => ⟨S100000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x128, .f32⟩
  | .hbm, ⟨56, _⟩ => ⟨S1x128, .f32⟩
  | .hbm, ⟨57, _⟩ => ⟨S500000x128, .f32⟩
  | .hbm, ⟨58, _⟩ => ⟨S100000x128, .f32⟩
  | .hbm, ⟨59, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S384x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S384x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S384x128_S128x128_0_0 : ∀ a, (![0, 0] : Fin 2 → Nat) a + S128x128.size a ≤ S384x128.size a
  h_S128x128 : 0 < S128x128.numel
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x128 : S_.BroadcastsInDim S100000x128 (![] : Fin 0 → Fin S100000x128.rank)
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  dot_S2000x128_S128x128_S2000x128_1_0_0_1_n_n_wf : DotDims.WF S2000x128 S128x128 S2000x128 [1] [0] [0] [1] [] []
  scatter_S100000x128_S500000x1_S500000x128_1_0_0_1_wf : ScatterDims.WF S100000x128 S500000x1 S500000x128 [1] [0] [0] 1
  gather_S100000x128_S500000x1_S500000x128_1_0_n_n_0_1_1128_wf : GatherDims.WF S100000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S500000x128.size a
  hwx0_3 : ∀ i : grid0.Coords, EltTy.bits .f32 = 32 ∨ (Rect.block (s := S500000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x128.size a ≤ S384x128.size a
  hwx0_4 : ∀ i : grid0.Coords, EltTy.bits .f32 = 32 ∨ (Rect.block (s := S384x128) S384x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S500000x128.size a
  hwx0_6 : ∀ i : grid0.Coords, EltTy.bits .f32 = 32 ∨ (Rect.block (s := S500000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S500000x128.size a
  hwx1_0 : ∀ i : grid1.Coords, EltTy.bits .f32 = 32 ∨ (Rect.block (s := S500000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S500000x128.size a
  hwx1_1 : ∀ i : grid1.Coords, EltTy.bits .f32 = 32 ∨ (Rect.block (s := S500000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S500000x128.size a
  hwx1_2 : ∀ i : grid1.Coords, EltTy.bits .f32 = 32 ∨ (Rect.block (s := S500000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S500000x128.size a
  hwx1_3 : ∀ i : grid1.Coords, EltTy.bits .f32 = 32 ∨ (Rect.block (s := S500000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x128.size a ≤ S384x128.size a
  hwx1_4 : ∀ i : grid1.Coords, EltTy.bits .f32 = 32 ∨ (Rect.block (s := S384x128) S384x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S500000x128.size a
  hwx1_6 : ∀ i : grid1.Coords, EltTy.bits .f32 = 32 ∨ (Rect.block (s := S500000x128) S2000x128.size (cc1_transform_6 i) (hinb1_6 i)).WholeWords (EltTy.packing .f32)

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S384x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S500000x128 : Shape := ⟨2, ![500000, 128]⟩
abbrev S50000x128 : Shape := ⟨2, ![50000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S50000x128, .f32⟩
  | .hbm, ⟨2, _⟩ => ⟨S100000x128, .f32⟩
  | .hbm, ⟨3, _⟩ => ⟨S500000x128, .f32⟩
  | .hbm, ⟨4, _⟩ => ⟨S500000, .i32⟩
  | .hbm, ⟨5, _⟩ => ⟨S500000, .i32⟩
  | .hbm, ⟨6, _⟩ => ⟨S384x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S_, .f32⟩
  | .hbm, ⟨11, _⟩ => ⟨S50000x128, .f32⟩
  | .hbm, ⟨12, _⟩ => ⟨S500000x1, .i32⟩
  | .hbm, ⟨13, _⟩ => ⟨S50000x128, .f32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S500000x128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S500000x384, .f32⟩
  | .hbm, ⟨34, _⟩ => ⟨S500000x128, .f32⟩
  | .hbm, ⟨35, _⟩ => ⟨S1x128, .f32⟩
  | .hbm, ⟨36, _⟩ => ⟨S500000x128, .f32⟩
  | .hbm, ⟨37, _⟩ => ⟨S500000x128, .f32⟩
  | .hbm, ⟨38, _⟩ => ⟨S_, .f32⟩
  | .hbm, ⟨39, _⟩ => ⟨S500000x128, .f32⟩
  | .hbm, ⟨40, _⟩ => ⟨S500000x128, .f32⟩
  | .hbm, ⟨41, _⟩ => ⟨S_, .f32⟩
  | .hbm, ⟨42, _⟩ => ⟨S100000x128, .f32⟩
  | .hbm, ⟨43, _⟩ => ⟨S500000x1, .i32⟩
  | .hbm, ⟨44, _⟩ => ⟨S100000x128, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x128, .f32⟩
  | .hbm, ⟨54, _⟩ => ⟨S500000x128, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x128, .f32⟩
  | .hbm, ⟨64, _⟩ => ⟨S500000x384, .f32⟩
  | .hbm, ⟨65, _⟩ => ⟨S500000x128, .f32⟩
  | .hbm, ⟨66, _⟩ => ⟨S1x128, .f32⟩
  | .hbm, ⟨67, _⟩ => ⟨S500000x128, .f32⟩
  | .hbm, ⟨68, _⟩ => ⟨S500000x128, .f32⟩
  | .hbm, ⟨69, _⟩ => ⟨S_, .f32⟩
  | .hbm, ⟨70, _⟩ => ⟨S500000x128, .f32⟩
  | .hbm, ⟨71, _⟩ => ⟨S500000x128, .f32⟩
  | .hbm, ⟨72, _⟩ => ⟨S100000x128, .f32⟩
  | .hbm, ⟨73, _⟩ => ⟨S50000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  scatter_S100000x128_S500000x1_S500000x128_1_0_0_1_wf : ScatterDims.WF S100000x128 S500000x1 S500000x128 [1] [0] [0] 1
  gather_S100000x128_S500000x1_S500000x128_1_0_n_n_0_1_1128_wf : GatherDims.WF S100000x128 S500000x1 S500000x128 [1] [0] [] [0] [] 1 ![1, 128]

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

class Facts : Prop extends Facts₀ where

variable [Facts]
-- ==== Proof.KernelRun.lean ====
/-
  The idealized kernel program's run with its three results named.

  @main is five segments: a stretch of host operations, the first message update (a pipelined region over 250 blocks of
  2000 edge rows), a second stretch, the second update, and two host additions.  The buffer contents at each segment
  boundary are a fold through these segments from the launch memory; the run ends with every unscoped buffer at the last
  boundary's contents.  Read at the three result buffers this gives the results; read at the arguments, which nothing
  writes, it gives the launch contents.
-/
import proofs.«123990_j49306224558820_2_alg».proof.Proof.Gen.KernelIdeal.Frame

set_option maxRecDepth 16384

noncomputable section

namespace Cert.KernelIdeal.Res

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last boundary's
    contents and the arguments as launched. -/
theorem run : θ_run defs (onTc (τ := τ) (main (F := F))) ⟨m, fun _ => 0, ρ⟩ (fun r => ∀ c : Dev nD,
      r.2.mem ((c.tc : Thread nD τ).loc main_v37) = W5 m ρ c (Proc.devRef .tc main_v37)
      ∧ r.2.mem ((c.tc : Thread nD τ).loc main_v38) = W5 m ρ c (Proc.devRef .tc main_v38)
      ∧ r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v37 (by decide)),
       h c _ (mem_uc main_v38 (by decide)),
       h c _ (mem_uc main_v39 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Res

end
-- ==== Proof.MlpSpec.lean ====
/-
  The message update of one factor-graph half-step, as a function on extended reals.

  For an edge row r and an output column j the update is
      relu( Σ_k x(r,k)·W₁(k,j) + Σ_k (y(r,k) − z(r,k))·W₂(k,j) + Σ_k e(r,k)·W₃(k,j) + b(0,j) ),
  where W₁, W₂, W₃ are the three 128-row bands of one [384,128] weight matrix.  This is the product of the
  concatenated row (x | y − z | e) of length 384 with the whole matrix, the sum over the 384 columns split into its
  three bands of 128: a regrouping of a finite sum, valid in any commutative monoid (no finiteness is needed).
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The update at row `r`, column `j`, with the three weight bands given separately. -/
def at3 {E : Nat} (x y z e : (⟨2, ![E, 128]⟩ : Shape).Idx → EReal)
    (W1 W2 W3 : (⟨2, ![128, 128]⟩ : Shape).Idx → EReal) (b : (⟨2, ![1, 128]⟩ : Shape).Idx → EReal)
    (r : Fin E) (j : Fin 128) : EReal :=
  max ((∑ k : Fin 128, x (ix2 r k) * W1 (ix2 k j)) + (∑ k : Fin 128, (y (ix2 r k) - z (ix2 r k)) * W2 (ix2 k j))
      + (∑ k : Fin 128, e (ix2 r k) * W3 (ix2 k j)) + b (ix2 (0 : Fin 1) j)) 0

/-- The band of 128 rows of a [384,128] matrix that starts at row `o`. -/
def band (W : (⟨2, ![384, 128]⟩ : Shape).Idx → EReal) (o : Nat) (ho : o + 128 ≤ 384) :
    (⟨2, ![128, 128]⟩ : Shape).Idx → EReal :=
  fun i => W (ix2 (⟨o + (i 0).val, by have h0 := idx2_lt0 i; omega⟩ : Fin 384) (⟨(i 1).val, idx2_lt1 i⟩ : Fin 128))

theorem band_apply (W : (⟨2, ![384, 128]⟩ : Shape).Idx → EReal) (o : Nat) (ho : o + 128 ≤ 384) (k j : Fin 128) :
    band W o ho (ix2 k j) = W (ix2 (⟨o + k.val, by omega⟩ : Fin 384) j) := rfl

/-- The update as a whole array: every row of `x`, `y − z`, `e` against the three bands of `W`. -/
def whole {E : Nat} (x y z e : (⟨2, ![E, 128]⟩ : Shape).Idx → EReal)
    (W : (⟨2, ![384, 128]⟩ : Shape).Idx → EReal) (b : (⟨2, ![1, 128]⟩ : Shape).Idx → EReal) :
    (⟨2, ![E, 128]⟩ : Shape).Idx → EReal :=
  fun i => at3 x y z e (band W 0 (by omega)) (band W 128 (by omega)) (band W 256 (by omega)) b
    ⟨(i 0).val, idx2_lt0 i⟩ ⟨(i 1).val, idx2_lt1 i⟩

theorem whole_apply {E : Nat} (x y z e : (⟨2, ![E, 128]⟩ : Shape).Idx → EReal)
    (W : (⟨2, ![384, 128]⟩ : Shape).Idx → EReal) (b : (⟨2, ![1, 128]⟩ : Shape).Idx → EReal) (r : Fin E) (j : Fin 128) :
    whole x y z e W b (ix2 r j)
      = at3 x y z e (band W 0 (by omega)) (band W 128 (by omega)) (band W 256 (by omega)) b r j := rfl

/-- A sum over 384 indices is the sum of its three bands of 128. -/
theorem sum_bands {M : Type*} [AddCommMonoid M] (f : Fin 384 → M) :
    ∑ k : Fin 384, f k = (∑ k : Fin 128, f ⟨0 + k.val, by omega⟩) + (∑ k : Fin 128, f ⟨128 + k.val, by omega⟩)
      + ∑ k : Fin 128, f ⟨256 + k.val, by omega⟩ := by
  have h1 := Fin.sum_univ_add (a := 256) (b := 128) (fun i : Fin (256 + 128) => f ⟨i.val, i.isLt⟩)
  have h2 := Fin.sum_univ_add (a := 128) (b := 128) (fun i : Fin (128 + 128) => f ⟨i.val, by omega⟩)
  have h0 : (∑ k : Fin 128, f ⟨0 + k.val, by omega⟩) = ∑ k : Fin 128, f ⟨k.val, by omega⟩ :=
    Finset.sum_congr rfl fun k _ => congrArg f (Fin.ext (Nat.zero_add _))
  rw [h0]
  calc ∑ k : Fin 384, f k = ∑ i : Fin (256 + 128), f ⟨i.val, i.isLt⟩ := rfl
    _ = (∑ i : Fin 256, f ⟨i.val, by omega⟩) + ∑ i : Fin 128, f ⟨256 + i.val, by omega⟩ := h1
    _ = _ := by rw [show (∑ i : Fin 256, f ⟨i.val, by omega⟩) = ∑ i : Fin (128 + 128), f ⟨i.val, by omega⟩ from rfl, h2]; rfl

end Cert.Mlp

end
-- ==== Proof.KernelPay.lean ====
/-
  What the update kernel's body stores, read at a row and a column.

  The body loads a 2000-row block of each of the four edge arrays, the three 128-row bands of the weight matrix and the
  bias row, multiplies each block by its band (a matrix product into a zero accumulator is the plain sum over the 128
  contracted columns; a change of float format is the identity on extended reals), adds the three products and the
  bias row broadcast down the rows, and takes the maximum with zero.
-/
import proofs.«123990_j49306224558820_2_alg».proof.Proof.Gen.KernelIdeal.Skeleton
import proofs.«123990_j49306224558820_2_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

abbrev D := dot_S2000x128_S128x128_S2000x128_1_0_0_1_n_n

theorem lhs0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block times a band into a zero accumulator, at row `p` and column `q`: the sum over the 128 contracted columns. -/
theorem matmul_at {φ₁ φ₂ : FTy} (l : FVec Ideal S2000x128 φ₁) (r : FVec Ideal S128x128 φ₂) (p : Fin 2000) (q : Fin 128) :
    FloatOps.matmul D none l r (constant S2000x128 .f32 0x00000000#32) (ix2 p q) = ∑ k : Fin 128, l (ix2 p k) * r (ix2 k q) := by
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 128 rfl rfl).symm k) = ix2 k q := funext fun a => Fin.ext (by
    match a with
    | ⟨0, _⟩ => exact (rhs0 _ _).trans hk
    | ⟨1, _⟩ => exact rhs1 _ _)
  rw [el, er]

theorem pay0_apply (v0 v2 v4 v6 : Vec Ideal S2000x128 .f32) (v7 v8 v9 : Vec Ideal S128x128 .f32) (v21 : Vec Ideal S1x128 .f32)
    (p : Fin 2000) (q : Fin 128) :
    k0_pay1 v0 v2 v4 v6 v7 v8 v9 v21 (ix2 p q) = Cert.Mlp.at3 v0 v2 v4 v6 v7 v8 v9 v21 p q := by
  unfold k0_pay1 Cert.Mlp.at3
  simp only [shapeCast_self]
  have hb : broadcastTo S2000x128 v21 broadcasts_S1x128_S2000x128 (ix2 p q) = v21 (ix2 (0 : Fin 1) q) :=
    broadcastTo_apply v21 broadcasts_S1x128_S2000x128 (ix2 p q) (ix2 (0 : Fin 1) q) (fun a => by
      match a with
      | ⟨0, _⟩ => show 0 = if (1 : Nat) = 1 then 0 else _; rw [if_pos rfl]
      | ⟨1, _⟩ => show q.val = if (128 : Nat) = 1 then 0 else _; rw [if_neg (by decide)]; rfl)
  rw [maximumf_apply, addf_apply, addf_apply, addf_apply, hb]
  simp only [matmul]
  rw [matmul_at, matmul_at, matmul_at]
  simp only [truncf_apply, subf_apply, broadcast_apply, Ideal.ofBits_def, Ideal.ofBits_zero_f32]

theorem pay1_apply (v0 v2 v4 v7 : Vec Ideal S2000x128 .f32) (v8 v9 v10 : Vec Ideal S128x128 .f32) (v22 : Vec Ideal S1x128 .f32)
    (p : Fin 2000) (q : Fin 128) :
    k1_pay1 v0 v2 v4 v7 v8 v9 v10 v22 (ix2 p q) = Cert.Mlp.at3 v0 v2 v4 v7 v8 v9 v10 v22 p q := by
  unfold k1_pay1 Cert.Mlp.at3
  simp only [shapeCast_self]
  have hb : broadcastTo S2000x128 v22 broadcasts_S1x128_S2000x128 (ix2 p q) = v22 (ix2 (0 : Fin 1) q) :=
    broadcastTo_apply v22 broadcasts_S1x128_S2000x128 (ix2 p q) (ix2 (0 : Fin 1) q) (fun a => by
      match a with
      | ⟨0, _⟩ => show 0 = if (1 : Nat) = 1 then 0 else _; rw [if_pos rfl]
      | ⟨1, _⟩ => show q.val = if (128 : Nat) = 1 then 0 else _; rw [if_neg (by decide)]; rfl)
  rw [maximumf_apply, addf_apply, addf_apply, addf_apply, hb]
  simp only [matmul]
  rw [matmul_at, matmul_at, matmul_at]
  simp only [truncf_apply, subf_apply, broadcast_apply, Ideal.ofBits_def, Ideal.ofBits_zero_f32]

/-- The update at a row and column depends only on that row of the four edge arrays, that column of the three bands and
    that entry of the bias row. -/
theorem at3_congr {E E' : Nat} (x y z e : (⟨2, ![E, 128]⟩ : Shape).Idx → EReal) (x' y' z' e' : (⟨2, ![E', 128]⟩ : Shape).Idx → EReal)
    (W1 W2 W3 W1' W2' W3' : (⟨2, ![128, 128]⟩ : Shape).Idx → EReal) (b b' : (⟨2, ![1, 128]⟩ : Shape).Idx → EReal)
    (r : Fin E) (r' : Fin E') (j j' : Fin 128)
    (hx : ∀ k : Fin 128, x (ix2 r k) = x' (ix2 r' k)) (hy : ∀ k : Fin 128, y (ix2 r k) = y' (ix2 r' k))
    (hz : ∀ k : Fin 128, z (ix2 r k) = z' (ix2 r' k)) (he : ∀ k : Fin 128, e (ix2 r k) = e' (ix2 r' k))
    (h1 : ∀ k : Fin 128, W1 (ix2 k j) = W1' (ix2 k j')) (h2 : ∀ k : Fin 128, W2 (ix2 k j) = W2' (ix2 k j'))
    (h3 : ∀ k : Fin 128, W3 (ix2 k j) = W3' (ix2 k j')) (hb : b (ix2 (0 : Fin 1) j) = b' (ix2 (0 : Fin 1) j')) :
    Cert.Mlp.at3 x y z e W1 W2 W3 b r j = Cert.Mlp.at3 x' y' z' e' W1' W2' W3' b' r' j' := by
  unfold Cert.Mlp.at3
  simp only [hx, hy, hz, he, h1, h2, h3, hb]

end Cert.KernelIdeal.Pay

end
-- ==== Proof.KernelRegion0.lean ====
/-
  What the first update region leaves in its output array.

  The region walks 250 grid points; point t reads rows 2000·t … 2000·t + 1999 of its four edge arrays, the whole weight
  matrix and the bias row, and writes back rows 2000·t … 2000·t + 1999 of the output.  What it writes is the update
  (the specification's function of the region's input arrays as the region finds them) read through the same rows;
  the 250 blocks tile the 500000 rows, so the output array ends as that function, whole.
-/
import proofs.«123990_j49306224558820_2_alg».proof.Proof.Gen.KernelIdeal.Frame
import proofs.«123990_j49306224558820_2_alg».proof.Proof.KernelPay
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array after the region: the update of the region's input arrays. -/
def G (c : Dev nD) : S500000x128.Idx → EReal :=
  Cert.Mlp.whole (V c main_v16) (V c main_v9) (V c main_arg0) (V c main_arg3) (V c main_arg6) (V c main_v17)

/-- The printed index maps over the grid: the four edge windows and the output window are at block row `t`, the weight
    and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e00, e01, e10, e11, e20, e21, e30, e31, e40, e41, e50, e51, e60, e61⟩ := idx_facts t
  have hN : t.val < 250 := Nat.lt_of_lt_of_eq (show t.val < grid0.N from t.isLt) N_0
  have hp : p.val < 2000 := p.isLt
  have hq : q.val < 128 := q.isLt
  show k0_pay1 (iblk0 V c 0 t) (iblk0 V c 1 t) (iblk0 V c 2 t) (iblk0 V c 3 t) (View.ld (iblk0 V c 4 t) r0_1)
      (View.ld (iblk0 V c 4 t) r0_2) (View.ld (iblk0 V c 4 t) r0_3) (iblk0 V c 5 t) (ix2 p q)
    = G V c (((cfg0.win 6).blk t).view.emb (ix2 p q))
  refine (Cert.KernelIdeal.Pay.pay0_apply _ _ _ _ _ _ _ _ p q).trans ?_
  have hi : ((cfg0.win 6).blk t).view.emb (ix2 p q) = ix2 (⟨t.val * 2000 + p.val, by omega⟩ : Fin 500000) q :=
    funext fun a => Fin.ext (by
      match a with
      | ⟨0, _⟩ => show win0_6.index t (0 : Fin 2) * 2000 + 1 * p.val = t.val * 2000 + p.val; omega
      | ⟨1, _⟩ => show win0_6.index t (1 : Fin 2) * 128 + 1 * q.val = q.val; omega)
  rw [hi]
  unfold G
  rw [Cert.Mlp.whole_apply]
  have hx : ∀ k : Fin 128, iblk0 V c 0 t (ix2 p k) = V c main_v16 (ix2 (⟨t.val * 2000 + p.val, by omega⟩ : Fin 500000) k) := fun k => by
    show V c main_v16 (((cfg0.win 0).blk t).view.emb (ix2 p k)) = _
    refine congrArg (V c main_v16) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have hy : ∀ k : Fin 128, iblk0 V c 1 t (ix2 p k) = V c main_v9 (ix2 (⟨t.val * 2000 + p.val, by omega⟩ : Fin 500000) k) := fun k => by
    show V c main_v9 (((cfg0.win 1).blk t).view.emb (ix2 p k)) = _
    refine congrArg (V c main_v9) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  have hz : ∀ k : Fin 128, iblk0 V c 2 t (ix2 p k) = V c main_arg0 (ix2 (⟨t.val * 2000 + p.val, by omega⟩ : Fin 500000) k) := fun k => by
    show V c main_arg0 (((cfg0.win 2).blk t).view.emb (ix2 p k)) = _
    refine congrArg (V c main_arg0) (funext fun a => Fin.ext ?_)
    match a with
    | ⟨0, _⟩ => show win0_2.index t (0 : Fin 2) * 2000 + 1 * p.val = t.val * 2000 + p.val; omega
    | ⟨1, _⟩ => show win0_2.index t (1 : Fin 2) * 128 + 1 * k.val = k.val; omega
  have he : ∀ k : Fin 128, iblk0 V c 3 t (ix2 p k) = V c main_arg3 (ix2 (⟨t.val * 2000 + p.val, by omega⟩ : Fin 500000) k) := fun k => by
    show V c main_arg3 (((cfg0.win 3).blk t).view.emb (ix2 p k)) = _
    refine congrArg (V c main_arg3) (funext fun a => Fin.ext ?_)
    match a with
    | ⟨0, _⟩ => show win0_3.index t (0 : Fin 2) * 2000 + 1 * p.val = t.val * 2000 + p.val; omega
    | ⟨1, _⟩ => show win0_3.index t (1 : Fin 2) * 128 + 1 * k.val = k.val; omega
  have h1 : ∀ k : Fin 128, View.ld (iblk0 V c 4 t) r0_1 (ix2 k q) = Cert.Mlp.band (V c main_arg6) 0 (by omega) (ix2 k q) := fun k => by
    rw [Cert.Mlp.band_apply]
    show V c main_arg6 (((cfg0.win 4).blk t).view.emb (r0_1.emb (ix2 k q))) = _
    refine congrArg (V c main_arg6) (funext fun a => Fin.ext ?_)
    match a with
    | ⟨0, _⟩ => show win0_4.index t (0 : Fin 2) * 384 + 1 * (0 + 1 * k.val) = 0 + k.val; omega
    | ⟨1, _⟩ => show win0_4.index t (1 : Fin 2) * 128 + 1 * (0 + 1 * q.val) = q.val; omega
  have h2 : ∀ k : Fin 128, View.ld (iblk0 V c 4 t) r0_2 (ix2 k q) = Cert.Mlp.band (V c main_arg6) 128 (by omega) (ix2 k q) := fun k => by
    rw [Cert.Mlp.band_apply]
    show V c main_arg6 (((cfg0.win 4).blk t).view.emb (r0_2.emb (ix2 k q))) = _
    refine congrArg (V c main_arg6) (funext fun a => Fin.ext ?_)
    match a with
    | ⟨0, _⟩ => show win0_4.index t (0 : Fin 2) * 384 + 1 * (128 + 1 * k.val) = 128 + k.val; omega
    | ⟨1, _⟩ => show win0_4.index t (1 : Fin 2) * 128 + 1 * (0 + 1 * q.val) = q.val; omega
  have h3 : ∀ k : Fin 128, View.ld (iblk0 V c 4 t) r0_3 (ix2 k q) = Cert.Mlp.band (V c main_arg6) 256 (by omega) (ix2 k q) := fun k => by
    rw [Cert.Mlp.band_apply]
    show V c main_arg6 (((cfg0.win 4).blk t).view.emb (r0_3.emb (ix2 k q))) = _
    refine congrArg (V c main_arg6) (funext fun a => Fin.ext ?_)
    match a with
    | ⟨0, _⟩ => show win0_4.index t (0 : Fin 2) * 384 + 1 * (256 + 1 * k.val) = 256 + k.val; omega
    | ⟨1, _⟩ => show win0_4.index t (1 : Fin 2) * 128 + 1 * (0 + 1 * q.val) = q.val; omega
  have hb : iblk0 V c 5 t (ix2 (0 : Fin 1) q) = V c main_v17 (ix2 (0 : Fin 1) q) := by
    show V c main_v17 (((cfg0.win 5).blk t).view.emb (ix2 (0 : Fin 1) q)) = _
    refine congrArg (V c main_v17) (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega
  exact Cert.KernelIdeal.Pay.at3_congr (E := 2000) (E' := 500000) _ _ _ _ _ _ _ _ _ _ _ _ _ _ _ _ p _ q q hx hy hz he h1 h2 h3 hb

/-- An index of the output array is in point `t`'s block iff each coordinate is in the block's range on its axis. -/
theorem mem_blk (t : Fin cfg0.N) (i : S500000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v18).slice (win0_6.rect t)).set ↔ _
  rw [View.set_slice_whole, Rect.mem_set_unit]
  exact Iff.rfl

/-- The 250 blocks of 2000 rows tile the 500000 rows (row `r` is in block `r / 2000`), so the output array ends as the
    update of the region's input arrays. -/
theorem final (c : Dev nD) : (dat0 V c).arrAt 6 cfg0.N = G V c :=
  (dat0 V c).arrAt_eq_of_cover 6 (G V c) (fun t _ => flushed_eq V c t) fun i => by
    have hi0 : (i 0).val < 500000 := (i 0).isLt
    have hi1 : (i 1).val < 128 := (i 1).isLt
    have hlt : (i 0).val / 2000 < grid0.N := by rw [N_0]; omega
    refine ⟨⟨(i 0).val / 2000, hlt⟩, flush0_6 _, ?_⟩
    rw [mem_blk]
    obtain ⟨-, -, -, -, -, -, -, -, -, -, -, -, e60, e61⟩ := idx_facts ⟨(i 0).val / 2000, hlt⟩
    intro a
    match a with
    | ⟨0, _⟩ =>
      show win0_6.index ⟨(i 0).val / 2000, hlt⟩ (0 : Fin 2) * 2000 ≤ (i 0).val
        ∧ (i 0).val < win0_6.index ⟨(i 0).val / 2000, hlt⟩ (0 : Fin 2) * 2000 + 2000
      rw [e60]
      show (i 0).val / 2000 * 2000 ≤ (i 0).val ∧ (i 0).val < (i 0).val / 2000 * 2000 + 2000
      omega
    | ⟨1, _⟩ =>
      show win0_6.index ⟨(i 0).val / 2000, hlt⟩ (1 : Fin 2) * 128 ≤ (i 1).val
        ∧ (i 1).val < win0_6.index ⟨(i 0).val / 2000, hlt⟩ (1 : Fin 2) * 128 + 128
      rw [e61]
      omega

end Cert.KernelIdeal.Reg0

end
-- ==== Proof.KernelRegion1.lean ====
/-
  What the second update region leaves in its output array.

  The region walks 250 grid points; point t reads rows 2000·t … 2000·t + 1999 of its four edge arrays, the whole weight
  matrix and the bias row, and writes back rows 2000·t … 2000·t + 1999 of the output.  What it writes is the update
  (the specification's function of the region's input arrays as the region finds them) read through the same rows;
  the 250 blocks tile the 500000 rows, so the output array ends as that function, whole.
-/
import proofs.«123990_j49306224558820_2_alg».proof.Proof.Gen.KernelIdeal.Frame
import proofs.«123990_j49306224558820_2_alg».proof.Proof.KernelPay
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array after the region: the update of the region's input arrays. -/
def G (c : Dev nD) : S500000x128.Idx → EReal :=
  Cert.Mlp.whole (V c main_v35) (V c main_v28) (V c main_v18) (V c main_arg3) (V c main_arg8) (V c main_v36)

/-- The printed index maps over the grid: the four edge windows and the output window are at block row `t`, the weight
    and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e00, e01, e10, e11, e20, e21, e30, e31, e40, e41, e50, e51, e60, e61⟩ := idx_facts t
  have hN : t.val < 250 := Nat.lt_of_lt_of_eq (show t.val < grid1.N from t.isLt) N_1
  have hp : p.val < 2000 := p.isLt
  have hq : q.val < 128 := q.isLt
  show k1_pay1 (iblk1 V c 0 t) (iblk1 V c 1 t) (iblk1 V c 2 t) (iblk1 V c 3 t) (View.ld (iblk1 V c 4 t) r1_1)
      (View.ld (iblk1 V c 4 t) r1_2) (View.ld (iblk1 V c 4 t) r1_3) (iblk1 V c 5 t) (ix2 p q)
    = G V c (((cfg1.win 6).blk t).view.emb (ix2 p q))
  refine (Cert.KernelIdeal.Pay.pay1_apply _ _ _ _ _ _ _ _ p q).trans ?_
  have hi : ((cfg1.win 6).blk t).view.emb (ix2 p q) = ix2 (⟨t.val * 2000 + p.val, by omega⟩ : Fin 500000) q :=
    funext fun a => Fin.ext (by
      match a with
      | ⟨0, _⟩ => show win1_6.index t (0 : Fin 2) * 2000 + 1 * p.val = t.val * 2000 + p.val; omega
      | ⟨1, _⟩ => show win1_6.index t (1 : Fin 2) * 128 + 1 * q.val = q.val; omega)
  rw [hi]
  unfold G
  rw [Cert.Mlp.whole_apply]
  have hx : ∀ k : Fin 128, iblk1 V c 0 t (ix2 p k) = V c main_v35 (ix2 (⟨t.val * 2000 + p.val, by omega⟩ : Fin 500000) k) := fun k => by
    show V c main_v35 (((cfg1.win 0).blk t).view.emb (ix2 p k)) = _
    refine congrArg (V c main_v35) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have hy : ∀ k : Fin 128, iblk1 V c 1 t (ix2 p k) = V c main_v28 (ix2 (⟨t.val * 2000 + p.val, by omega⟩ : Fin 500000) k) := fun k => by
    show V c main_v28 (((cfg1.win 1).blk t).view.emb (ix2 p k)) = _
    refine congrArg (V c main_v28) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  have hz : ∀ k : Fin 128, iblk1 V c 2 t (ix2 p k) = V c main_v18 (ix2 (⟨t.val * 2000 + p.val, by omega⟩ : Fin 500000) k) := fun k => by
    show V c main_v18 (((cfg1.win 2).blk t).view.emb (ix2 p k)) = _
    refine congrArg (V c main_v18) (funext fun a => Fin.ext ?_)
    match a with
    | ⟨0, _⟩ => show win1_2.index t (0 : Fin 2) * 2000 + 1 * p.val = t.val * 2000 + p.val; omega
    | ⟨1, _⟩ => show win1_2.index t (1 : Fin 2) * 128 + 1 * k.val = k.val; omega
  have he : ∀ k : Fin 128, iblk1 V c 3 t (ix2 p k) = V c main_arg3 (ix2 (⟨t.val * 2000 + p.val, by omega⟩ : Fin 500000) k) := fun k => by
    show V c main_arg3 (((cfg1.win 3).blk t).view.emb (ix2 p k)) = _
    refine congrArg (V c main_arg3) (funext fun a => Fin.ext ?_)
    match a with
    | ⟨0, _⟩ => show win1_3.index t (0 : Fin 2) * 2000 + 1 * p.val = t.val * 2000 + p.val; omega
    | ⟨1, _⟩ => show win1_3.index t (1 : Fin 2) * 128 + 1 * k.val = k.val; omega
  have h1 : ∀ k : Fin 128, View.ld (iblk1 V c 4 t) r1_1 (ix2 k q) = Cert.Mlp.band (V c main_arg8) 0 (by omega) (ix2 k q) := fun k => by
    rw [Cert.Mlp.band_apply]
    show V c main_arg8 (((cfg1.win 4).blk t).view.emb (r1_1.emb (ix2 k q))) = _
    refine congrArg (V c main_arg8) (funext fun a => Fin.ext ?_)
    match a with
    | ⟨0, _⟩ => show win1_4.index t (0 : Fin 2) * 384 + 1 * (0 + 1 * k.val) = 0 + k.val; omega
    | ⟨1, _⟩ => show win1_4.index t (1 : Fin 2) * 128 + 1 * (0 + 1 * q.val) = q.val; omega
  have h2 : ∀ k : Fin 128, View.ld (iblk1 V c 4 t) r1_2 (ix2 k q) = Cert.Mlp.band (V c main_arg8) 128 (by omega) (ix2 k q) := fun k => by
    rw [Cert.Mlp.band_apply]
    show V c main_arg8 (((cfg1.win 4).blk t).view.emb (r1_2.emb (ix2 k q))) = _
    refine congrArg (V c main_arg8) (funext fun a => Fin.ext ?_)
    match a with
    | ⟨0, _⟩ => show win1_4.index t (0 : Fin 2) * 384 + 1 * (128 + 1 * k.val) = 128 + k.val; omega
    | ⟨1, _⟩ => show win1_4.index t (1 : Fin 2) * 128 + 1 * (0 + 1 * q.val) = q.val; omega
  have h3 : ∀ k : Fin 128, View.ld (iblk1 V c 4 t) r1_3 (ix2 k q) = Cert.Mlp.band (V c main_arg8) 256 (by omega) (ix2 k q) := fun k => by
    rw [Cert.Mlp.band_apply]
    show V c main_arg8 (((cfg1.win 4).blk t).view.emb (r1_3.emb (ix2 k q))) = _
    refine congrArg (V c main_arg8) (funext fun a => Fin.ext ?_)
    match a with
    | ⟨0, _⟩ => show win1_4.index t (0 : Fin 2) * 384 + 1 * (256 + 1 * k.val) = 256 + k.val; omega
    | ⟨1, _⟩ => show win1_4.index t (1 : Fin 2) * 128 + 1 * (0 + 1 * q.val) = q.val; omega
  have hb : iblk1 V c 5 t (ix2 (0 : Fin 1) q) = V c main_v36 (ix2 (0 : Fin 1) q) := by
    show V c main_v36 (((cfg1.win 5).blk t).view.emb (ix2 (0 : Fin 1) q)) = _
    refine congrArg (V c main_v36) (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  exact Cert.KernelIdeal.Pay.at3_congr (E := 2000) (E' := 500000) _ _ _ _ _ _ _ _ _ _ _ _ _ _ _ _ p _ q q hx hy hz he h1 h2 h3 hb

/-- An index of the output array is in point `t`'s block iff each coordinate is in the block's range on its axis. -/
theorem mem_blk (t : Fin cfg1.N) (i : S500000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v37).slice (win1_6.rect t)).set ↔ _
  rw [View.set_slice_whole, Rect.mem_set_unit]
  exact Iff.rfl

/-- The 250 blocks of 2000 rows tile the 500000 rows (row `r` is in block `r / 2000`), so the output array ends as the
    update of the region's input arrays. -/
theorem final (c : Dev nD) : (dat1 V c).arrAt 6 cfg1.N = G V c :=
  (dat1 V c).arrAt_eq_of_cover 6 (G V c) (fun t _ => flushed_eq V c t) fun i => by
    have hi0 : (i 0).val < 500000 := (i 0).isLt
    have hi1 : (i 1).val < 128 := (i 1).isLt
    have hlt : (i 0).val / 2000 < grid1.N := by rw [N_1]; omega
    refine ⟨⟨(i 0).val / 2000, hlt⟩, flush1_6 _, ?_⟩
    rw [mem_blk]
    obtain ⟨-, -, -, -, -, -, -, -, -, -, -, -, e60, e61⟩ := idx_facts ⟨(i 0).val / 2000, hlt⟩
    intro a
    match a with
    | ⟨0, _⟩ =>
      show win1_6.index ⟨(i 0).val / 2000, hlt⟩ (0 : Fin 2) * 2000 ≤ (i 0).val
        ∧ (i 0).val < win1_6.index ⟨(i 0).val / 2000, hlt⟩ (0 : Fin 2) * 2000 + 2000
      rw [e60]
      show (i 0).val / 2000 * 2000 ≤ (i 0).val ∧ (i 0).val < (i 0).val / 2000 * 2000 + 2000
      omega
    | ⟨1, _⟩ =>
      show win1_6.index ⟨(i 0).val / 2000, hlt⟩ (1 : Fin 2) * 128 ≤ (i 1).val
        ∧ (i 1).val < win1_6.index ⟨(i 0).val / 2000, hlt⟩ (1 : Fin 2) * 128 + 128
      rw [e61]
      omega

end Cert.KernelIdeal.Reg1

end
-- ==== Proof.KernelTerms.lean ====
/-
  The three results of the layer as pure functions of the ten argument arrays.

  `sum1` adds every edge's previous message onto its variable node (a segment sum over the first index array);
  `idx1` is that index array with negative entries wrapped by the number of variables, as one index column;
  `msg1` is the update of (variable features gathered per edge, the segment sums gathered per edge, the edges'
  own previous messages, the edge attributes) with the first weights and bias.  The second half-step repeats this with
  the factor nodes: `sum2`, `idx2`, `msg2`.  The results are `msg2`, `sum2 + factor`, `sum1 + variable`.
-/
import proofs.«123990_j49306224558820_2_alg».proof.KernelIdeal
import proofs.«123990_j49306224558820_2_alg».proof.Proof.Gen.KernelIdeal
import proofs.«123990_j49306224558820_2_alg».proof.Proof.MlpSpec

noncomputable section

namespace Cert.KernelIdeal.Terms

open Cert.KernelIdeal Cert.KernelIdeal.Gen Idealize.ShloMosaic Idealize.ShloMosaic.TcCoe

variable (a0 : FVec Ideal S500000x128 .f32) (a1 : FVec Ideal S50000x128 .f32) (a2 : FVec Ideal S100000x128 .f32)
  (a3 : FVec Ideal S500000x128 .f32) (a4 a5 : IVec S500000 32) (a6 : FVec Ideal S384x128 .f32) (a7 : FVec Ideal S128 .f32)
  (a8 : FVec Ideal S384x128 .f32) (a9 : FVec Ideal S128 .f32)

def sum1 : FVec Ideal S50000x128 .f32 :=
  Host.scatterAdd scatter_S50000x128_S500000x1_S500000x128_1_0_0_1
    (broadcastInDim S50000x128 ![] bcast_S_S50000x128 (constant (F := Ideal) S_ .f32 0x00000000#32))
    (broadcastInDim S500000x1 ![0] bcast_S500000_S500000x1_0 a4) a0

def idx1 : IVec S500000x1 32 :=
  broadcastInDim S500000x1 ![0] bcast_S500000_S500000x1_0
    (select (cmpi .slt a4 (broadcastInDim S500000 ![] bcast_S_S500000 (constantI S_ 32 0#32)))
      (addi a4 (broadcastInDim S500000 ![] bcast_S_S500000 (constantI S_ 32 50000#32))) a4)

def biasRow (b : FVec Ideal S128 .f32) : FVec Ideal S1x128 .f32 := shapeCast S1x128 b shapeCasts_S128_S1x128

def msg1 : FVec Ideal S500000x128 .f32 :=
  Cert.Mlp.whole (Host.gather gather_S50000x128_S500000x1_S500000x128_1_0_n_n_0_1_1128 a1 (idx1 a4))
    (Host.gather gather_S50000x128_S500000x1_S500000x128_1_0_n_n_0_1_1128 (sum1 a0 a4) (idx1 a4)) a0 a3 a6 (biasRow a7)

def sum2 : FVec Ideal S100000x128 .f32 :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 a5) (msg1 a0 a1 a3 a4 a6 a7)

def idx2 : IVec S500000x1 32 :=
  broadcastInDim S500000x1 ![0] bcast_S500000_S500000x1_0
    (select (cmpi .slt a5 (broadcastInDim S500000 ![] bcast_S_S500000 (constantI S_ 32 0#32)))
      (addi a5 (broadcastInDim S500000 ![] bcast_S_S500000 (constantI S_ 32 100000#32))) a5)

def msg2 : FVec Ideal S500000x128 .f32 :=
  Cert.Mlp.whole (Host.gather gather_S100000x128_S500000x1_S500000x128_1_0_n_n_0_1_1128 a2 (idx2 a5))
    (Host.gather gather_S100000x128_S500000x1_S500000x128_1_0_n_n_0_1_1128 (sum2 a0 a1 a3 a4 a5 a6 a7) (idx2 a5))
    (msg1 a0 a1 a3 a4 a6 a7) a3 a8 (biasRow a9)

def out1 : FVec Ideal S100000x128 .f32 := addf (sum2 a0 a1 a3 a4 a5 a6 a7) a2

def out2 : FVec Ideal S50000x128 .f32 := addf (sum1 a0 a4) a1

end Cert.KernelIdeal.Terms

end
-- ==== Proof.KernelHost.lean ====
/-
  The host side of the run, read as mathematics.

  The program is five segments: a stretch of host operations, a first region, a second stretch of host operations, a
  second region, and two final additions.  The buffer contents at each boundary are a fold from the launch memory.
  Walking the fold backwards, every buffer the results depend on is read as a pure function of the ten launch arrays:

    * a host stretch writes each of its result buffers as its operation applied to its operands' contents, and leaves
      every buffer it does not write as it was;
    * a region leaves in its output array the update of its six input arrays as it found them (the two hypotheses), and
      leaves its input arrays and every buffer that is none of its arrays as they were.

  First stretch: the segment sums of the previous messages over the first index array, the two gathers through the
  wrapped first index column, the first bias as a row.  First region: the first half-step's messages.  Second stretch:
  the segment sums of those messages over the second index array, the two gathers through the wrapped second index
  column, the second bias as a row.  Second region: the second half-step's messages.  Last stretch: the two sums added
  onto the factor and the variable features.  Composed, these are the three pure terms of the specification.
-/
import proofs.«123990_j49306224558820_2_alg».proof.Proof.Gen.KernelIdeal.Frame
import proofs.«123990_j49306224558820_2_alg».proof.Proof.KernelTerms
import Idealize.ShloMosaic.Lib.StableHlo.Run

set_option maxRecDepth 16384

noncomputable section

namespace Cert.KernelIdeal.HostFold

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

-- the folds over the host stretches are long literal lists: the default budget is too small for some of them
set_option maxHeartbeats 1600000

section First
variable (V : Valuation τ sig (Elt Ideal))
theorem host1_v28 :
    StableHlo.after hostOps1 V (Proc.devRef .tc main_v28)
      = Host.gather gather_S100000x128_S500000x1_S500000x128_1_0_n_n_0_1_1128
          (Host.scatterAdd scatter_S100000x128_S500000x1_S500000x128_1_0_0_1
            (broadcastInDim S100000x128 ![] bcast_S_S100000x128 (constant (F := Ideal) S_ .f32 0x00000000#32))
            (broadcastInDim S500000x1 ![0] bcast_S500000_S500000x1_0 (V (Proc.devRef .tc main_arg5)))
            (V (Proc.devRef .tc main_v18)))
          (Terms.idx2 (V (Proc.devRef .tc main_arg5))) := by
  after_results_simp
  rfl

end First

section Host
variable (V : Valuation τ sig (Elt Ideal))

/-! ## The first host stretch, from any contents `V` -/

theorem host0_v2 :
    StableHlo.after hostOps0 V (Proc.devRef .tc main_v2)
      = Terms.sum1 (V (Proc.devRef .tc main_arg0)) (V (Proc.devRef .tc main_arg4)) := by
  after_results; rfl

theorem host0_v9 :
    StableHlo.after hostOps0 V (Proc.devRef .tc main_v9)
      = Host.gather gather_S50000x128_S500000x1_S500000x128_1_0_n_n_0_1_1128
          (Terms.sum1 (V (Proc.devRef .tc main_arg0)) (V (Proc.devRef .tc main_arg4))) (Terms.idx1 (V (Proc.devRef .tc main_arg4))) := by
  after_results; rfl

theorem host0_v16 :
    StableHlo.after hostOps0 V (Proc.devRef .tc main_v16)
      = Host.gather gather_S50000x128_S500000x1_S500000x128_1_0_n_n_0_1_1128
          (V (Proc.devRef .tc main_arg1)) (Terms.idx1 (V (Proc.devRef .tc main_arg4))) := by
  after_results; rfl

theorem host0_v17 :
    StableHlo.after hostOps0 V (Proc.devRef .tc main_v17) = Terms.biasRow (V (Proc.devRef .tc main_arg7)) := by
  after_results; rfl

end Host

section Host12
variable (V : Valuation τ sig (Elt Ideal))

/-! ## The second host stretch, from any contents `V` -/

theorem host1_v21 :
    StableHlo.after hostOps1 V (Proc.devRef .tc main_v21)
      = Host.scatterAdd scatter_S100000x128_S500000x1_S500000x128_1_0_0_1
          (broadcastInDim S100000x128 ![] bcast_S_S100000x128 (constant (F := Ideal) S_ .f32 0x00000000#32))
          (broadcastInDim S500000x1 ![0] bcast_S500000_S500000x1_0 (V (Proc.devRef .tc main_arg5)))
          (V (Proc.devRef .tc main_v18)) := by
  after_results

theorem host1_v35 :
    StableHlo.after hostOps1 V (Proc.devRef .tc main_v35)
      = Host.gather gather_S100000x128_S500000x1_S500000x128_1_0_n_n_0_1_1128
          (V (Proc.devRef .tc main_arg2)) (Terms.idx2 (V (Proc.devRef .tc main_arg5))) := by
  after_results_simp
  rfl

theorem host1_v36 :
    StableHlo.after hostOps1 V (Proc.devRef .tc main_v36) = Terms.biasRow (V (Proc.devRef .tc main_arg9)) := by
  after_results; rfl

/-! ## The last host stretch -/

theorem host2_v38 :
    StableHlo.after hostOps2 V (Proc.devRef .tc main_v38)
      = (addf (V (Proc.devRef .tc main_v21)) (V (Proc.devRef .tc main_arg2)) : FVec Ideal S100000x128 .f32) := by
  after_results

theorem host2_v39 :
    StableHlo.after hostOps2 V (Proc.devRef .tc main_v39)
      = (addf (V (Proc.devRef .tc main_v2)) (V (Proc.devRef .tc main_arg1)) : FVec Ideal S50000x128 .f32) := by
  after_results

end Host12

section Keep
variable (V : Valuation τ sig (Elt Ideal))

/-- The buffers the first host stretch writes. -/
abbrev written0 : List (Ref sig .tc) :=
  [main_cst, main_v0, main_v1, main_v2, main_c, main_v3, main_v4, main_c_0, main_v5, main_v6, main_v7, main_v8, main_v9,
   main_c_1, main_v10, main_v11, main_c_2, main_v12, main_v13, main_v14, main_v15, main_v16, main_v17]
/-- The buffers the second host stretch writes. -/
abbrev written1 : List (Ref sig .tc) :=
  [main_cst_3, main_v19, main_v20, main_v21, main_c_4, main_v22, main_v23, main_c_5, main_v24, main_v25, main_v26, main_v27,
   main_v28, main_c_6, main_v29, main_v30, main_c_7, main_v31, main_v32, main_v33, main_v34, main_v35, main_v36]
/-- The buffers the last host stretch writes. -/
abbrev written2 : List (Ref sig .tc) := [main_v38, main_v39]

theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem writes1 : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem writes2 : (hostOps2 : List (HloOp τ sig (Elt Ideal))).Forall fun op =>
    op.writes ⊆ (written2.map (Proc.devRef (τ := τ) .tc)).toFinset := by
  simp only [hostOps2, List.Forall, StableHlo.binary_writes, Finset.singleton_subset_iff, List.mem_toFinset]
  repeat' apply And.intro
  all_goals exact List.mem_map_of_mem (by decide)

/-- A buffer a host stretch does not write keeps its contents. -/
theorem keep0 (r : Ref sig .tc) (hr : r ∉ written0) :
    StableHlo.after hostOps0 V (Proc.devRef .tc r) = V (Proc.devRef .tc r) :=
  StableHlo.after_of_writes_sub hostOps0 V writes0 hr
theorem keep1 (r : Ref sig .tc) (hr : r ∉ written1) :
    StableHlo.after hostOps1 V (Proc.devRef .tc r) = V (Proc.devRef .tc r) :=
  StableHlo.after_of_writes_sub hostOps1 V writes1 hr
theorem keep2 (r : Ref sig .tc) (hr : r ∉ written2) :
    StableHlo.after hostOps2 V (Proc.devRef .tc r) = V (Proc.devRef .tc r) :=
  StableHlo.after_of_writes_sub hostOps2 V writes2 hr

end Keep

/-! ## The fold read back to the launch arrays, boundary by boundary -/

section Chain

/-! ### After the first host stretch -/
theorem W1_arg0 (c : Dev nD) : W1 m ρ c (Proc.devRef .tc main_arg0) = (m ((c.tc : Thread nD τ).loc main_arg0)) :=
  keep0 (W0 m ρ c) main_arg0 (by decide)
theorem W1_arg1 (c : Dev nD) : W1 m ρ c (Proc.devRef .tc main_arg1) = (m ((c.tc : Thread nD τ).loc main_arg1)) :=
  keep0 (W0 m ρ c) main_arg1 (by decide)
theorem W1_arg2 (c : Dev nD) : W1 m ρ c (Proc.devRef .tc main_arg2) = (m ((c.tc : Thread nD τ).loc main_arg2)) :=
  keep0 (W0 m ρ c) main_arg2 (by decide)
theorem W1_arg3 (c : Dev nD) : W1 m ρ c (Proc.devRef .tc main_arg3) = (m ((c.tc : Thread nD τ).loc main_arg3)) :=
  keep0 (W0 m ρ c) main_arg3 (by decide)
theorem W1_arg5 (c : Dev nD) : W1 m ρ c (Proc.devRef .tc main_arg5) = (m ((c.tc : Thread nD τ).loc main_arg5)) :=
  keep0 (W0 m ρ c) main_arg5 (by decide)
theorem W1_arg6 (c : Dev nD) : W1 m ρ c (Proc.devRef .tc main_arg6) = (m ((c.tc : Thread nD τ).loc main_arg6)) :=
  keep0 (W0 m ρ c) main_arg6 (by decide)
theorem W1_arg8 (c : Dev nD) : W1 m ρ c (Proc.devRef .tc main_arg8) = (m ((c.tc : Thread nD τ).loc main_arg8)) :=
  keep0 (W0 m ρ c) main_arg8 (by decide)
theorem W1_arg9 (c : Dev nD) : W1 m ρ c (Proc.devRef .tc main_arg9) = (m ((c.tc : Thread nD τ).loc main_arg9)) :=
  keep0 (W0 m ρ c) main_arg9 (by decide)
theorem W1_v2 (c : Dev nD) : W1 m ρ c (Proc.devRef .tc main_v2) = Terms.sum1 (m ((c.tc : Thread nD τ).loc main_arg0)) (m ((c.tc : Thread nD τ).loc main_arg4)) :=
  host0_v2 (W0 m ρ c)
theorem W1_v9 (c : Dev nD) : W1 m ρ c (Proc.devRef .tc main_v9)
    = Host.gather gather_S50000x128_S500000x1_S500000x128_1_0_n_n_0_1_1128 (Terms.sum1 (m ((c.tc : Thread nD τ).loc main_arg0)) (m ((c.tc : Thread nD τ).loc main_arg4))) (Terms.idx1 (m ((c.tc : Thread nD τ).loc main_arg4))) :=
  host0_v9 (W0 m ρ c)
theorem W1_v16 (c : Dev nD) : W1 m ρ c (Proc.devRef .tc main_v16)
    = Host.gather gather_S50000x128_S500000x1_S500000x128_1_0_n_n_0_1_1128 (m ((c.tc : Thread nD τ).loc main_arg1)) (Terms.idx1 (m ((c.tc : Thread nD τ).loc main_arg4))) :=
  host0_v16 (W0 m ρ c)
theorem W1_v17 (c : Dev nD) : W1 m ρ c (Proc.devRef .tc main_v17) = Terms.biasRow (m ((c.tc : Thread nD τ).loc main_arg7)) :=
  host0_v17 (W0 m ρ c)

/-! ### After the first region: its output array holds the first half-step's messages, its input arrays and every
    other buffer are as the region found them -/

theorem W2_v18 (c : Dev nD) (h0 : (dat0 (V1 m ρ) c).arrAt 6 cfg0.N = Cert.Mlp.whole (V1 m ρ c main_v16) (V1 m ρ c main_v9) (V1 m ρ c main_arg0)
      (V1 m ρ c main_arg3) (V1 m ρ c main_arg6) (V1 m ρ c main_v17)) :
    W2 m ρ c (Proc.devRef .tc main_v18) = Terms.msg1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) := by
  refine (W2_arr m ρ c 6).trans (h0.trans ?_)
  show Cert.Mlp.whole (W1 m ρ c (Proc.devRef .tc main_v16)) (W1 m ρ c (Proc.devRef .tc main_v9)) (W1 m ρ c (Proc.devRef .tc main_arg0))
    (W1 m ρ c (Proc.devRef .tc main_arg3)) (W1 m ρ c (Proc.devRef .tc main_arg6)) (W1 m ρ c (Proc.devRef .tc main_v17)) = _
  rw [W1_v16, W1_v9, W1_arg0, W1_arg3, W1_arg6, W1_v17]
  rfl
theorem W2_arg3 (c : Dev nD) : W2 m ρ c (Proc.devRef .tc main_arg3) = (m ((c.tc : Thread nD τ).loc main_arg3)) :=
  ((W2_arr m ρ c 3).trans (((dat0 (V1 m ρ) c).arrAt_in 3 rfl _).trans (A_eq0 (V1 m ρ) c 3))).trans (W1_arg3 m ρ c)
theorem W2_arg1 (c : Dev nD) : W2 m ρ c (Proc.devRef .tc main_arg1) = (m ((c.tc : Thread nD τ).loc main_arg1)) :=
  (W2_of_ne m ρ c main_arg1 (by decide)).trans (W1_arg1 m ρ c)
theorem W2_arg2 (c : Dev nD) : W2 m ρ c (Proc.devRef .tc main_arg2) = (m ((c.tc : Thread nD τ).loc main_arg2)) :=
  (W2_of_ne m ρ c main_arg2 (by decide)).trans (W1_arg2 m ρ c)
theorem W2_arg5 (c : Dev nD) : W2 m ρ c (Proc.devRef .tc main_arg5) = (m ((c.tc : Thread nD τ).loc main_arg5)) :=
  (W2_of_ne m ρ c main_arg5 (by decide)).trans (W1_arg5 m ρ c)
theorem W2_arg8 (c : Dev nD) : W2 m ρ c (Proc.devRef .tc main_arg8) = (m ((c.tc : Thread nD τ).loc main_arg8)) :=
  (W2_of_ne m ρ c main_arg8 (by decide)).trans (W1_arg8 m ρ c)
theorem W2_arg9 (c : Dev nD) : W2 m ρ c (Proc.devRef .tc main_arg9) = (m ((c.tc : Thread nD τ).loc main_arg9)) :=
  (W2_of_ne m ρ c main_arg9 (by decide)).trans (W1_arg9 m ρ c)
theorem W2_v2 (c : Dev nD) : W2 m ρ c (Proc.devRef .tc main_v2) = Terms.sum1 (m ((c.tc : Thread nD τ).loc main_arg0)) (m ((c.tc : Thread nD τ).loc main_arg4)) :=
  (W2_of_ne m ρ c main_v2 (by decide)).trans (W1_v2 m ρ c)

/-! ### After the second host stretch -/

theorem W3_v18 (c : Dev nD) (h0 : (dat0 (V1 m ρ) c).arrAt 6 cfg0.N = Cert.Mlp.whole (V1 m ρ c main_v16) (V1 m ρ c main_v9) (V1 m ρ c main_arg0)
      (V1 m ρ c main_arg3) (V1 m ρ c main_arg6) (V1 m ρ c main_v17)) :
    W3 m ρ c (Proc.devRef .tc main_v18) = Terms.msg1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) :=
  (keep1 (W2 m ρ c) main_v18 (by decide)).trans (W2_v18 m ρ c h0)
theorem W3_v2 (c : Dev nD) : W3 m ρ c (Proc.devRef .tc main_v2) = Terms.sum1 (m ((c.tc : Thread nD τ).loc main_arg0)) (m ((c.tc : Thread nD τ).loc main_arg4)) :=
  (keep1 (W2 m ρ c) main_v2 (by decide)).trans (W2_v2 m ρ c)
theorem W3_arg1 (c : Dev nD) : W3 m ρ c (Proc.devRef .tc main_arg1) = (m ((c.tc : Thread nD τ).loc main_arg1)) :=
  (keep1 (W2 m ρ c) main_arg1 (by decide)).trans (W2_arg1 m ρ c)
theorem W3_arg2 (c : Dev nD) : W3 m ρ c (Proc.devRef .tc main_arg2) = (m ((c.tc : Thread nD τ).loc main_arg2)) :=
  (keep1 (W2 m ρ c) main_arg2 (by decide)).trans (W2_arg2 m ρ c)
theorem W3_arg3 (c : Dev nD) : W3 m ρ c (Proc.devRef .tc main_arg3) = (m ((c.tc : Thread nD τ).loc main_arg3)) :=
  (keep1 (W2 m ρ c) main_arg3 (by decide)).trans (W2_arg3 m ρ c)
theorem W3_arg8 (c : Dev nD) : W3 m ρ c (Proc.devRef .tc main_arg8) = (m ((c.tc : Thread nD τ).loc main_arg8)) :=
  (keep1 (W2 m ρ c) main_arg8 (by decide)).trans (W2_arg8 m ρ c)
theorem W3_v21 (c : Dev nD) (h0 : (dat0 (V1 m ρ) c).arrAt 6 cfg0.N = Cert.Mlp.whole (V1 m ρ c main_v16) (V1 m ρ c main_v9) (V1 m ρ c main_arg0)
      (V1 m ρ c main_arg3) (V1 m ρ c main_arg6) (V1 m ρ c main_v17)) :
    W3 m ρ c (Proc.devRef .tc main_v21) = Terms.sum2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (host1_v21 (W2 m ρ c)).trans ?_
  rw [W2_arg5, W2_v18 m ρ c h0]
  rfl
theorem W3_v28 (c : Dev nD) (h0 : (dat0 (V1 m ρ) c).arrAt 6 cfg0.N = Cert.Mlp.whole (V1 m ρ c main_v16) (V1 m ρ c main_v9) (V1 m ρ c main_arg0)
      (V1 m ρ c main_arg3) (V1 m ρ c main_arg6) (V1 m ρ c main_v17)) :
    W3 m ρ c (Proc.devRef .tc main_v28)
      = Host.gather gather_S100000x128_S500000x1_S500000x128_1_0_n_n_0_1_1128 (Terms.sum2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (Terms.idx2 (m ((c.tc : Thread nD τ).loc main_arg5))) := by
  refine (host1_v28 (W2 m ρ c)).trans ?_
  rw [W2_arg5, W2_v18 m ρ c h0]
  rfl
theorem W3_v35 (c : Dev nD) : W3 m ρ c (Proc.devRef .tc main_v35)
    = Host.gather gather_S100000x128_S500000x1_S500000x128_1_0_n_n_0_1_1128 (m ((c.tc : Thread nD τ).loc main_arg2)) (Terms.idx2 (m ((c.tc : Thread nD τ).loc main_arg5))) := by
  refine (host1_v35 (W2 m ρ c)).trans ?_
  rw [W2_arg2, W2_arg5]
theorem W3_v36 (c : Dev nD) : W3 m ρ c (Proc.devRef .tc main_v36) = Terms.biasRow (m ((c.tc : Thread nD τ).loc main_arg9)) := by
  refine (host1_v36 (W2 m ρ c)).trans ?_
  rw [W2_arg9]

/-! ### After the second region -/

theorem W4_v37 (c : Dev nD) (h0 : (dat0 (V1 m ρ) c).arrAt 6 cfg0.N = Cert.Mlp.whole (V1 m ρ c main_v16) (V1 m ρ c main_v9) (V1 m ρ c main_arg0)
      (V1 m ρ c main_arg3) (V1 m ρ c main_arg6) (V1 m ρ c main_v17))
    (h1 : (dat1 (V3 m ρ) c).arrAt 6 cfg1.N = Cert.Mlp.whole (V3 m ρ c main_v35) (V3 m ρ c main_v28) (V3 m ρ c main_v18)
      (V3 m ρ c main_arg3) (V3 m ρ c main_arg8) (V3 m ρ c main_v36)) :
    W4 m ρ c (Proc.devRef .tc main_v37) = Terms.msg2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 6).trans (h1.trans ?_)
  show Cert.Mlp.whole (W3 m ρ c (Proc.devRef .tc main_v35)) (W3 m ρ c (Proc.devRef .tc main_v28)) (W3 m ρ c (Proc.devRef .tc main_v18))
    (W3 m ρ c (Proc.devRef .tc main_arg3)) (W3 m ρ c (Proc.devRef .tc main_arg8)) (W3 m ρ c (Proc.devRef .tc main_v36)) = _
  rw [W3_v35, W3_v28 m ρ c h0, W3_v18 m ρ c h0, W3_arg3, W3_arg8, W3_v36]
  rfl
theorem W4_v21 (c : Dev nD) (h0 : (dat0 (V1 m ρ) c).arrAt 6 cfg0.N = Cert.Mlp.whole (V1 m ρ c main_v16) (V1 m ρ c main_v9) (V1 m ρ c main_arg0)
      (V1 m ρ c main_arg3) (V1 m ρ c main_arg6) (V1 m ρ c main_v17)) :
    W4 m ρ c (Proc.devRef .tc main_v21) = Terms.sum2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W4_of_ne m ρ c main_v21 (by decide)).trans (W3_v21 m ρ c h0)
theorem W4_v2 (c : Dev nD) : W4 m ρ c (Proc.devRef .tc main_v2) = Terms.sum1 (m ((c.tc : Thread nD τ).loc main_arg0)) (m ((c.tc : Thread nD τ).loc main_arg4)) :=
  (W4_of_ne m ρ c main_v2 (by decide)).trans (W3_v2 m ρ c)
theorem W4_arg1 (c : Dev nD) : W4 m ρ c (Proc.devRef .tc main_arg1) = (m ((c.tc : Thread nD τ).loc main_arg1)) :=
  (W4_of_ne m ρ c main_arg1 (by decide)).trans (W3_arg1 m ρ c)
theorem W4_arg2 (c : Dev nD) : W4 m ρ c (Proc.devRef .tc main_arg2) = (m ((c.tc : Thread nD τ).loc main_arg2)) :=
  (W4_of_ne m ρ c main_arg2 (by decide)).trans (W3_arg2 m ρ c)

end Chain

theorem results (c : Dev nD)
    (h0 : (dat0 (V1 m ρ) c).arrAt 6 cfg0.N = Cert.Mlp.whole (V1 m ρ c main_v16) (V1 m ρ c main_v9) (V1 m ρ c main_arg0)
      (V1 m ρ c main_arg3) (V1 m ρ c main_arg6) (V1 m ρ c main_v17))
    (h1 : (dat1 (V3 m ρ) c).arrAt 6 cfg1.N = Cert.Mlp.whole (V3 m ρ c main_v35) (V3 m ρ c main_v28) (V3 m ρ c main_v18)
      (V3 m ρ c main_arg3) (V3 m ρ c main_arg8) (V3 m ρ c main_v36)) :
    W5 m ρ c (Proc.devRef .tc main_v37)
        = Terms.msg2 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
    ∧ W5 m ρ c (Proc.devRef .tc main_v38)
        = Terms.out1 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
    ∧ W5 m ρ c (Proc.devRef .tc main_v39)
        = Terms.out2 (m ((c.tc : Thread nD τ).loc main_arg0)) (m ((c.tc : Thread nD τ).loc main_arg1))
            (m ((c.tc : Thread nD τ).loc main_arg4)) := by
  refine ⟨?_, ?_, ?_⟩
  · exact (keep2 (W4 m ρ c) main_v37 (by decide)).trans (W4_v37 m ρ c h0 h1)
  · refine (host2_v38 (W4 m ρ c)).trans ?_
    rw [W4_v21 m ρ c h0, W4_arg2]
    rfl
  · refine (host2_v39 (W4 m ρ c)).trans ?_
    rw [W4_v2, W4_arg1]
    rfl

end Cert.KernelIdeal.HostFold

end
-- ==== Proof.RefMlp.lean ====
/-
  The reference's message update, read as mathematics on extended reals.

  The reference joins the three [500000,128] arrays x, y − z, e side by side into one [500000,384] array C, multiplies it
  with the [384,128] weight matrix W, adds the bias vector (spread over every row) and takes the maximum with zero.
  Read at row r and column j this is
      max( Σ_{k<384} C(r,k)·W(k,j) + bias(j), 0 ).
  A column k of C lies in exactly one of the three bands [0,128), [128,256), [256,384), where C(r,k) is x(r,k),
  (y − z)(r,k−128), e(r,k−256).  Splitting the sum over the 384 columns into its three bands of 128 (a regrouping of a
  finite sum in a commutative monoid; no finiteness of the summands is needed) gives
      Σ_{k<128} x(r,k)·W(k,j) + Σ_{k<128} (y(r,k) − z(r,k))·W(128+k,j) + Σ_{k<128} e(r,k)·W(256+k,j),
  which is the specification's value at (r,j).
-/
import proofs.«123990_j49306224558820_2_alg».proof.ReferenceIdeal
import proofs.«123990_j49306224558820_2_alg».proof.Proof.Gen.ReferenceIdeal
import proofs.«123990_j49306224558820_2_alg».proof.Proof.Gen.ReferenceIdeal.Read
import proofs.«123990_j49306224558820_2_alg».proof.Proof.MlpSpec
import Idealize.ShloMosaic.Lib.Pipeline.Value
import Idealize.ShloMosaic.Lib.ValueIdx
import Idealize.ShloMosaic.PureOps.Ideal.Laws

noncomputable section

namespace Cert.RefMlp

open Cert.ReferenceIdeal Cert.ReferenceIdeal.Gen Idealize.ShloMosaic Idealize.ShloMosaic.TcCoe Idealize.ShloMosaic.ValueIdx

/-- The product of a [500000,384] array with a [384,128] matrix, at row `r` and column `j`: the sum over the 384
    columns of the array's row `r` against the matrix's column `j`. -/
theorem dot_apply (C : FVec Ideal S500000x384 .f32) (W : FVec Ideal S384x128 .f32) (r : Fin 500000) (j : Fin 128) :
    Host.dotGeneral dot_S500000x384_S384x128_S500000x128_1_0_0_1_n_n none C W (ix2 r j)
      = ∑ k : Fin 384, C (ix2 r k) * W (ix2 k j) := by
  simp only [Host.dotGeneral]
  rw [Ideal.dotGeneral_apply, ← Equiv.sum_comp (ValueIdx.contrEquiv1 dot_S500000x384_S384x128_S500000x128_1_0_0_1_n_n 384 rfl rfl).symm]
  refine Finset.sum_congr rfl fun k _ => ?_
  have hk := ValueIdx.contrEquiv1_symm_val dot_S500000x384_S384x128_S500000x128_1_0_0_1_n_n 384 rfl rfl k
  have el : dot_S500000x384_S384x128_S500000x128_1_0_0_1_n_n.lhsIdx (ix2 r j) ((ValueIdx.contrEquiv1 dot_S500000x384_S384x128_S500000x128_1_0_0_1_n_n 384 rfl rfl).symm k) = ix2 r k := funext fun a => Fin.ext (by
    match a with
    | ⟨0, _⟩ => exact Cert.ReferenceIdeal.Read.lhs_main_v19_0 _ _
    | ⟨1, _⟩ => exact (Cert.ReferenceIdeal.Read.lhs_main_v19_1 _ _).trans hk)
  have er : dot_S500000x384_S384x128_S500000x128_1_0_0_1_n_n.rhsIdx (ix2 r j) ((ValueIdx.contrEquiv1 dot_S500000x384_S384x128_S500000x128_1_0_0_1_n_n 384 rfl rfl).symm k) = ix2 k j := funext fun a => Fin.ext (by
    match a with
    | ⟨0, _⟩ => exact (Cert.ReferenceIdeal.Read.rhs_main_v19_0 _ _).trans hk
    | ⟨1, _⟩ => exact Cert.ReferenceIdeal.Read.rhs_main_v19_1 _ _)
  rw [el, er]

/-- The three arrays joined side by side, read in the first band: column `0 + k` of the joined array is column `k`
    of the first array. -/
theorem concat_band0 (p0 p1 p2 : FVec Ideal S500000x128 .f32) (r : Fin 500000) (k : Fin 128) :
    concatenate S500000x384 1 [⟨S500000x128, p0⟩, ⟨S500000x128, p1⟩, ⟨S500000x128, p2⟩]
        concatenates_S500000x128_S500000x128_S500000x128_S500000x384_d1 (ix2 r (⟨0 + k.val, by omega⟩ : Fin 384))
      = p0 (ix2 r k) :=
  concatenate_apply_piece (1 : Fin S500000x384.rank) _ _ _ 0 (by show (0 : Nat) < 3; decide) S500000x128 p0 rfl rfl 0 rfl (ix2 r k)
    (fun b hb => match b, hb with
      | ⟨0, _⟩, _ => rfl
      | ⟨1, _⟩, hb => absurd rfl hb)
    rfl

/-- In the second band: column `128 + k` of the joined array is column `k` of the second array. -/
theorem concat_band1 (p0 p1 p2 : FVec Ideal S500000x128 .f32) (r : Fin 500000) (k : Fin 128) :
    concatenate S500000x384 1 [⟨S500000x128, p0⟩, ⟨S500000x128, p1⟩, ⟨S500000x128, p2⟩]
        concatenates_S500000x128_S500000x128_S500000x128_S500000x384_d1 (ix2 r (⟨128 + k.val, by omega⟩ : Fin 384))
      = p1 (ix2 r k) :=
  concatenate_apply_piece (1 : Fin S500000x384.rank) _ _ _ 1 (by show (1 : Nat) < 3; decide) S500000x128 p1 rfl rfl 128 rfl (ix2 r k)
    (fun b hb => match b, hb with
      | ⟨0, _⟩, _ => rfl
      | ⟨1, _⟩, hb => absurd rfl hb)
    rfl

/-- In the third band: column `256 + k` of the joined array is column `k` of the third array. -/
theorem concat_band2 (p0 p1 p2 : FVec Ideal S500000x128 .f32) (r : Fin 500000) (k : Fin 128) :
    concatenate S500000x384 1 [⟨S500000x128, p0⟩, ⟨S500000x128, p1⟩, ⟨S500000x128, p2⟩]
        concatenates_S500000x128_S500000x128_S500000x128_S500000x384_d1 (ix2 r (⟨256 + k.val, by omega⟩ : Fin 384))
      = p2 (ix2 r k) :=
  concatenate_apply_piece (1 : Fin S500000x384.rank) _ _ _ 2 (by show (2 : Nat) < 3; decide) S500000x128 p2 rfl rfl 256 rfl (ix2 r k)
    (fun b hb => match b, hb with
      | ⟨0, _⟩, _ => rfl
      | ⟨1, _⟩, hb => absurd rfl hb)
    rfl

/-- The bias vector spread over every row, read at row `r` and column `j`: the vector's entry `j`. -/
theorem bias_apply (bv : FVec Ideal S128 .f32) (r : Fin 500000) (j : Fin 128) :
    broadcastInDim S500000x128 ![0, 1] bcast_S1x128_S500000x128_0_1 (broadcastInDim S1x128 ![1] bcast_S128_S1x128_1 bv)
        (ix2 r j) = bv (ix1 j) := by
  generalize hy : broadcastInDim S1x128 ![1] bcast_S128_S1x128_1 bv = y
  have h1 : broadcastInDim S500000x128 ![0, 1] bcast_S1x128_S500000x128_0_1 y (ix2 r j) = y (ix2 (0 : Fin 1) j) :=
    broadcastInDim_apply _ bcast_S1x128_S500000x128_0_1 y (ix2 r j) (ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)])
  rw [h1, ← hy]
  exact broadcastInDim_apply _ bcast_S128_S1x128_1 bv (ix2 (0 : Fin 1) j) (ix1 j) (fun a => match a with
    | ⟨0, _⟩ => by show j.val = if (128 : Nat) = 1 then 0 else j.val; rw [if_neg (by decide)])

/-- The constant zero spread over the whole array, read anywhere: zero. -/
theorem zero_apply (i : S500000x128.Idx) :
    broadcastInDim S500000x128 ![] bcast_S_S500000x128 (constant (F := Ideal) S_ .f32 0x00000000#32) i = (0 : EReal) := by
  generalize hy : constant (F := Ideal) S_ .f32 0x00000000#32 = y
  have h1 : broadcastInDim S500000x128 ![] bcast_S_S500000x128 y i = y (fun a => a.elim0) :=
    broadcastInDim_apply _ bcast_S_S500000x128 y i (fun a => a.elim0) (fun a => a.elim0)
  rw [h1, ← hy, constant_apply, Ideal.ofBits_zero_f32]

theorem refMlp_eq
    (x y z e : FVec Ideal S500000x128 .f32) (W : FVec Ideal S384x128 .f32)
    (bv : FVec Ideal S128 .f32) (b : (⟨2, ![1, 128]⟩ : Shape).Idx → EReal)
    (hb : ∀ j : Fin 128, b (ix2 (0 : Fin 1) j) = bv (ix1 j)) :
    maximumf (addf (Host.dotGeneral dot_S500000x384_S384x128_S500000x128_1_0_0_1_n_n none
        (concatenate S500000x384 1 [⟨S500000x128, x⟩, ⟨S500000x128, subf y z⟩, ⟨S500000x128, e⟩]
          concatenates_S500000x128_S500000x128_S500000x128_S500000x384_d1) W)
      (broadcastInDim S500000x128 ![0, 1] bcast_S1x128_S500000x128_0_1 (broadcastInDim S1x128 ![1] bcast_S128_S1x128_1 bv)))
      (broadcastInDim S500000x128 ![] bcast_S_S500000x128 (constant (F := Ideal) S_ .f32 0x00000000#32))
    = Cert.Mlp.whole x y z e W b := by
  funext i
  obtain ⟨r, j, rfl⟩ : ∃ (r : Fin 500000) (j : Fin 128), i = ix2 r j := ⟨i 0, i 1, eq_ix2 i⟩
  rw [Cert.Mlp.whole_apply]
  unfold Cert.Mlp.at3
  rw [maximumf_apply, addf_apply, zero_apply, bias_apply, dot_apply, Cert.Mlp.sum_bands, hb]
  refine congrArg (fun t => max (t + bv (ix1 j)) 0) ?_
  refine congrArg₂ (· + ·) (congrArg₂ (· + ·) ?_ ?_) ?_
  · exact Finset.sum_congr rfl fun k _ => by rw [concat_band0, Cert.Mlp.band_apply]
  · exact Finset.sum_congr rfl fun k _ => by rw [concat_band1, subf_apply, Cert.Mlp.band_apply]
  · exact Finset.sum_congr rfl fun k _ => by rw [concat_band2, Cert.Mlp.band_apply]

end Cert.RefMlp

end
-- ==== Proof.RefTerms.lean ====
/-
  The reference's three results are the same pure functions of the ten argument arrays as the kernel program's.

  Stage by stage the reference computes the segment sums, the wrapped index columns and the gathers exactly as the kernel
  program's host operations do; its two updates are relu(concat(x, y − z, e)·W + bias), which is the specification's
  update (a sum over 384 columns is the sum of its three bands of 128).
-/
import proofs.«123990_j49306224558820_2_alg».proof.Proof.Gen.ReferenceIdeal.Read
import proofs.«123990_j49306224558820_2_alg».proof.Proof.RefMlp
import proofs.«123990_j49306224558820_2_alg».proof.Proof.KernelTerms
import Idealize.ShloMosaic.Lib.Pipeline.Value
import Idealize.ShloMosaic.Lib.ValueIdx

noncomputable section

namespace Cert.RefTerms

open Cert.ReferenceIdeal Cert.ReferenceIdeal.Gen Cert.ReferenceIdeal.Read
open Idealize.ShloMosaic Idealize.ShloMosaic.TcCoe Idealize.ShloMosaic.ValueIdx
open Cert.KernelIdeal (Terms.sum1 Terms.idx1 Terms.biasRow Terms.msg1 Terms.sum2 Terms.idx2 Terms.msg2 Terms.out1 Terms.out2)

/-- A [128] vector recast as a [1,128] row, read at column `j`: the vector's entry `j`. -/
theorem biasRow_apply (b : FVec Ideal S128 .f32) (j : Fin 128) :
    Cert.KernelIdeal.Terms.biasRow b (ix2 (0 : Fin 1) j) = b (ix1 j) := by
  unfold Cert.KernelIdeal.Terms.biasRow
  refine (shapeCast_addUnit_apply ![128] b _ (ix2 (0 : Fin 1) j)).trans (congrArg b (funext fun a => ?_))
  match a with
  | ⟨0, _⟩ => rfl

variable (x0 : FVec Ideal S500000x128 .f32) (x1 : FVec Ideal S50000x128 .f32) (x2 : FVec Ideal S100000x128 .f32)
  (x3 : FVec Ideal S500000x128 .f32) (x4 x5 : IVec S500000 32) (x6 : FVec Ideal S384x128 .f32) (x7 : FVec Ideal S128 .f32)
  (x8 : FVec Ideal S384x128 .f32) (x9 : FVec Ideal S128 .f32)

theorem v2_eq : val_main_v2 (F := Ideal) x0 x4 = Cert.KernelIdeal.Terms.sum1 x0 x4 := rfl

theorem v23_eq : val_main_v23 (F := Ideal) x0 x1 x3 x4 x6 x7 = Cert.KernelIdeal.Terms.msg1 x0 x1 x3 x4 x6 x7 := by
  unfold val_main_v23 val_main_v22 val_main_v19 val_main_v18 val_main_v10 val_main_v21 val_main_v20 val_main_call0_v0 val_main_call0_cst
  exact (Cert.RefMlp.refMlp_eq _ _ _ _ _ _ (Cert.KernelIdeal.Terms.biasRow x7) (biasRow_apply x7)).trans rfl

theorem v26_eq : val_main_v26 (F := Ideal) x0 x1 x3 x4 x5 x6 x7 = Cert.KernelIdeal.Terms.sum2 x0 x1 x3 x4 x5 x6 x7 := by
  unfold val_main_v26 Cert.KernelIdeal.Terms.sum2
  rw [v23_eq]
  rfl

theorem v47_eq : val_main_v47 (F := Ideal) x0 x1 x2 x3 x4 x5 x6 x7 x8 x9 = Cert.KernelIdeal.Terms.msg2 x0 x1 x2 x3 x4 x5 x6 x7 x8 x9 := by
  unfold val_main_v47 val_main_v46 val_main_v43 val_main_v42 val_main_v34 val_main_v45 val_main_v44 val_main_call1_v0 val_main_call1_cst
  refine (Cert.RefMlp.refMlp_eq _ _ _ _ _ _ (Cert.KernelIdeal.Terms.biasRow x9) (biasRow_apply x9)).trans ?_
  unfold val_main_v33 Cert.KernelIdeal.Terms.msg2
  rw [v26_eq, v23_eq]
  rfl

theorem v48_eq : val_main_v48 (F := Ideal) x0 x1 x2 x3 x4 x5 x6 x7 = Cert.KernelIdeal.Terms.out1 x0 x1 x2 x3 x4 x5 x6 x7 := by
  unfold val_main_v48 Cert.KernelIdeal.Terms.out1
  rw [v26_eq]

theorem v49_eq : val_main_v49 (F := Ideal) x0 x1 x4 = Cert.KernelIdeal.Terms.out2 x0 x1 x4 := rfl

end Cert.RefTerms

end
-- ==== Proof.Claims.lean ====
/-
  The five claims.  The three frames are the programs' runs with the results forgotten; the idealization rewrote
  nothing; and at the ideal values the kernel program and the reference end with equal results: each of the three
  results is one pure function of the ten argument arrays on both sides.
-/
import proofs.«123990_j49306224558820_2_alg».proof.Defs
import proofs.«123990_j49306224558820_2_alg».proof.Proof.Gen.Kernel
import proofs.«123990_j49306224558820_2_alg».proof.Proof.Gen.Kernel.Frame
import proofs.«123990_j49306224558820_2_alg».proof.Proof.Gen.KernelIdeal
import proofs.«123990_j49306224558820_2_alg».proof.Proof.Gen.KernelIdeal.Frame
import proofs.«123990_j49306224558820_2_alg».proof.Proof.Gen.ReferenceIdeal
import proofs.«123990_j49306224558820_2_alg».proof.Proof.Gen.Pre_finite_inputs
import proofs.«123990_j49306224558820_2_alg».proof.Proof.Gen.ReferenceIdeal.Run
import proofs.«123990_j49306224558820_2_alg».proof.Proof.Gen.ReferenceIdeal.Read
import proofs.«123990_j49306224558820_2_alg».proof.Proof.KernelRun
import proofs.«123990_j49306224558820_2_alg».proof.Proof.KernelRegion0
import proofs.«123990_j49306224558820_2_alg».proof.Proof.KernelRegion1
import proofs.«123990_j49306224558820_2_alg».proof.Proof.KernelHost
import proofs.«123990_j49306224558820_2_alg».proof.Proof.RefTerms

noncomputable section

namespace Cert.Proof.Claims

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs end with the three results at the same pure functions of the ten argument arrays: the kernel program
    by reading its boundary contents back through its two regions and three host stretches, the reference by its
    composed term, whose two updates are the specification's (the 384-column sum split into its three bands). -/
theorem algebraic : Cert.algebraic_KernelIdeal_ReferenceIdeal := by
  intro m ρ m' ρ' _ hagree
  refine ⟨fun c => Cert.KernelIdeal.Terms.msg2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Terms.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Terms.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Res.run m ρ)
    obtain ⟨e37, e38, e39⟩ := Cert.KernelIdeal.HostFold.results m ρ c
      (Cert.KernelIdeal.Reg0.final (Cert.KernelIdeal.Gen.V1 m ρ) c) (Cert.KernelIdeal.Reg1.final (Cert.KernelIdeal.Gen.V3 m ρ) c)
    obtain ⟨h37, h38, h39, hargs⟩ := h c
    exact ⟨h37.trans e37, h38.trans e38, h39.trans e39, hargs⟩
  · refine (θ_run Cert.ReferenceIdeal.defs _ _).mono (fun r h c => ?_) (Cert.ReferenceIdeal.Value.run (F := Ideal) m' ρ')
    obtain ⟨h47, h48, h49, hargs⟩ := h c
    obtain ⟨g0, g1, g2, g3, g4, g5, g6, g7, g8, g9⟩ := hagree c
    refine ⟨h47.trans ?_, h48.trans ?_, h49.trans ?_, hargs⟩
    · rw [Cert.ReferenceIdeal.Read.val_main_v47_eq, Cert.RefTerms.v47_eq, g0, g1, g2, g3, g4, g5, g6, g7, g8, g9]
    · refine (Cert.ReferenceIdeal.Read.val_main_v48_eq _ _ _ _ _ _ _ _).trans ?_
      rw [Cert.RefTerms.v48_eq, g0, g1, g2, g3, g4, g5, g6, g7]
    · refine (Cert.ReferenceIdeal.Read.val_main_v49_eq _ _ _).trans ?_
      rw [Cert.RefTerms.v49_eq, g0, g1, g4]

end Cert.Proof.Claims

end
-- ==== Proof.lean ====
/-
  The certificate of one factor-graph message-passing layer: a kernel program whose two message updates are pipelined
  matrix products over blocks of 2000 edges, against a reference that concatenates the three inputs of each update and
  multiplies once.

  Both programs first add every edge's previous message onto its variable node, gather those sums and the variable
  features back per edge, and update:  relu((x | y − z | e)·W + b), the row (x | y − z | e) of length 384 against the
  [384,128] weight matrix.  The kernel computes the product band by band, x·W₁ + (y − z)·W₂ + e·W₃ with W₁, W₂, W₃ the
  three 128-row bands of W; on extended reals, where a change of float format is the identity and a matrix product
  into a zero accumulator is the plain sum of products, the two agree because a sum over 384 indices is the sum of its
  three bands of 128 (addition is commutative and associative on extended reals: no finiteness is used).  The second
  half-step repeats this over the factor nodes, and two additions give the new node features.

  Proof/MlpSpec.lean states the update; Proof/KernelPay.lean reads the kernel body's stored value at a row and column;
  Proof/KernelRegion0.lean and Proof/KernelRegion1.lean show each region leaves the update of its input arrays in its
  output array (250 blocks of 2000 rows tile the 500000 rows); Proof/KernelRun.lean is the kernel program's run with the
  results named, Proof/KernelHost.lean reads those results back through the host operations as the pure terms of
  Proof/KernelTerms.lean; Proof/RefMlp.lean and Proof/RefTerms.lean bring the reference's composed term to the same
  terms; Proof/Claims.lean assembles the five claims.
-/
import proofs.«123990_j49306224558820_2_alg».proof.Defs
import proofs.«123990_j49306224558820_2_alg».proof.Proof.Gen.Kernel
import proofs.«123990_j49306224558820_2_alg».proof.Proof.Gen.Kernel.Skeleton
import proofs.«123990_j49306224558820_2_alg».proof.Proof.Gen.Kernel.Launch
import proofs.«123990_j49306224558820_2_alg».proof.Proof.Gen.Kernel.Points
import proofs.«123990_j49306224558820_2_alg».proof.Proof.Gen.Kernel.Frame
import proofs.«123990_j49306224558820_2_alg».proof.Proof.Gen.KernelIdeal
import proofs.«123990_j49306224558820_2_alg».proof.Proof.Gen.KernelIdeal.Skeleton
import proofs.«123990_j49306224558820_2_alg».proof.Proof.Gen.KernelIdeal.Launch
import proofs.«123990_j49306224558820_2_alg».proof.Proof.Gen.KernelIdeal.Points
import proofs.«123990_j49306224558820_2_alg».proof.Proof.Gen.KernelIdeal.Frame
import proofs.«123990_j49306224558820_2_alg».proof.Proof.Gen.ReferenceIdeal
import proofs.«123990_j49306224558820_2_alg».proof.Proof.Gen.Pre_finite_inputs
import proofs.«123990_j49306224558820_2_alg».proof.Proof.Gen.ReferenceIdeal.Run
import proofs.«123990_j49306224558820_2_alg».proof.Proof.Gen.ReferenceIdeal.Read
import proofs.«123990_j49306224558820_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
